-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S8192x768 : Shape := ⟨2, ![8192, 768]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S4096x768 : Shape := ⟨2, ![4096, 768]⟩
abbrev S512x768 : Shape := ⟨2, ![512, 768]⟩
abbrev S1x512 : Shape := ⟨2, ![1, 512]⟩
abbrev S4096x512 : Shape := ⟨2, ![4096, 512]⟩
abbrev S4096x1 : Shape := ⟨2, ![4096, 1]⟩
abbrev S4096 : Shape := ⟨1, ![4096]⟩

abbrev nBuf : Space → Nat
  | .hbm => 7
  | .vmem => 9
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S8192x8192, .f32⟩
  | .local _ .vmem, ⟨0, _⟩ => ⟨S4096x768, .f32⟩
  | .local _ .vmem, ⟨1, _⟩ => ⟨S4096x768, .f32⟩
  | .local _ .vmem, ⟨2, _⟩ => ⟨S512x768, .f32⟩
  | .local _ .vmem, ⟨3, _⟩ => ⟨S512x768, .f32⟩
  | .local _ .vmem, ⟨4, _⟩ => ⟨S1x512, .f32⟩
  | .local _ .vmem, ⟨5, _⟩ => ⟨S1x512, .f32⟩
  | .local _ .vmem, ⟨6, _⟩ => ⟨S4096x512, .f32⟩
  | .local _ .vmem, ⟨7, _⟩ => ⟨S4096x512, .f32⟩
  | .local _ .vmem, ⟨8, _⟩ => ⟨S4096x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x768_S8192_d1 : S8192x768.ReducesTo [1] S8192
  h_S_ : 0 < S_.numel
  bcast_S8192_S1x8192_1 : S8192.BroadcastsInDim S1x8192 (![1] : Fin 1 → Fin S1x8192.rank)
  inb_S4096x768_S4096x768_0_0 : ∀ a, (![0, 0] : Fin 2 → Nat) a + S4096x768.size a ≤ S4096x768.size a
  h_S4096x768 : 0 < S4096x768.numel
  bitsLt_bf16_f32 : FTy.bits .bf16 < FTy.bits .f32
  reduces_S4096x768_S4096 : S4096x768.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S512x768_S512x768_0_0 : ∀ a, (![0, 0] : Fin 2 → Nat) a + S512x768.size a ≤ S512x768.size a
  h_S512x768 : 0 < S512x768.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S4096x1_S4096x512 : S4096x1.Broadcasts S4096x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S4096x768_S512x768_S4096x512_1_1_0_0_n_n_wf : DotDims.WF S4096x768 S512x768 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S8192x768.size a
  hwx0_0 : ∀ i : grid0.Coords, EltTy.bits .f32 = 32 ∨ (Rect.block (s := S8192x768) S4096x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .f32 = 32 ∨ (Rect.block (s := S8192x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S8192x8192.size a
  hwx0_3 : ∀ i : grid0.Coords, EltTy.bits .f32 = 32 ∨ (Rect.block (s := S8192x8192) S4096x512.size (cc0_transform_3 i) (hinb0_3 i)).WholeWords (EltTy.packing .f32)

variable [Facts₀]

def dot_S4096x768_S512x768_S4096x512_1_1_0_0_n_n : DotDims S4096x768 S512x768 S4096x512 where
  lhsContracting := [1]
  rhsContracting := [1]
  lhsNonContracting := [0]
  rhsNonContracting := [0]
  lhsBatch := []
  rhsBatch := []
  wf := dot_S4096x768_S512x768_S4096x512_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x768, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x768_S8192x768_S8192x8192_1_1_0_0_n_n_wf : DotDims.WF S8192x768 S8192x768 S8192x8192 [1] [1] [0] [0] [] []

variable [Facts₀]

def dot_S8192x768_S8192x768_S8192x8192_1_1_0_0_n_n : DotDims S8192x768 S8192x768 S8192x8192 where
  lhsContracting := [1]
  rhsContracting := [1]
  lhsNonContracting := [0]
  rhsNonContracting := [0]
  lhsBatch := []
  rhsBatch := []
  wf := dot_S8192x768_S8192x768_S8192x8192_1_1_0_0_n_n_wf

class Facts : Prop extends Facts₀ where

variable [Facts]
-- ==== Proof.Spec.lean ====
/-
  Pairwise squared distances, as one function of the two argument arrays.

  `x` and `y` are matrices of 8192 rows of 768 entries. For row `b` of `x` and row `n` of `y` the result entry is
      max ( (‖x_b‖² + ‖y_n‖²) − 2 · ⟨x_b, y_n⟩ , 0 )
  over the extended reals, where ‖·‖² is the sum of the squares of a row's entries and ⟨·,·⟩ the sum of the products of
  corresponding entries of the two rows. The factor 2 and the lower bound 0 are kept as the float words both programs
  spell them with; neither is ever evaluated, since the two sides meet on the same word.
-/
import Idealize.ShloMosaic.PureOps.Ideal
import Idealize.ShloMosaic.Lib.ValueIdx

noncomputable section

namespace Cert.PairDist

open Idealize.ShloMosaic Idealize.ShloMosaic.ValueIdx

/-- The squared norm of row `b`: the sum of the squares of its 768 entries. -/
def rowSq (x : FVec Ideal ⟨2, ![8192, 768]⟩ .f32) (b : Fin 8192) : EReal :=
  ∑ k : Fin 768, x (ix2 b k) * x (ix2 b k)

/-- The inner product of row `b` of `x` with row `n` of `y`. -/
def rowDot (x y : FVec Ideal ⟨2, ![8192, 768]⟩ .f32) (b n : Fin 8192) : EReal :=
  ∑ k : Fin 768, x (ix2 b k) * y (ix2 n k)

/-- The clamped squared distance between row `b` of `x` and row `n` of `y`. -/
def entry (x y : FVec Ideal ⟨2, ![8192, 768]⟩ .f32) (b n : Fin 8192) : EReal :=
  max (rowSq x b + rowSq y n - Ideal.ofBits .f32 0x40000000#32 * rowDot x y b n) (Ideal.ofBits .f32 0x00000000#32)

/-- All pairwise clamped squared distances: entry `(b, n)` is `entry x y b n`. -/
def sqDist (x y : FVec Ideal ⟨2, ![8192, 768]⟩ .f32) : FVec Ideal ⟨2, ![8192, 8192]⟩ .f32 :=
  fun i => entry x y (i 0) (i 1)

theorem sqDist_ix2 (x y : FVec Ideal ⟨2, ![8192, 768]⟩ .f32) (b n : Fin 8192) :
    sqDist x y (ix2 b n) = entry x y b n := rfl

end Cert.PairDist

end
-- ==== Proof.Blocks.lean ====
/-
  The windows' blocks, read at coordinates.

  The grid has 32 points, 2 row tiles by 16 column tiles, visited row tile first: point `t` is row tile `t / 16` and
  column tile `t % 16`. At point `t` the kernel sees rows `4096·(t/16) …` of `x`, rows `512·(t%16) …` of `y`, columns
  `512·(t%16) …` of the row of squared norms of `y` that the host computed before the launch, and writes the block of
  the result at those rows and columns. A block's coordinate on an axis is always the block's index times the block's
  extent plus the coordinate inside the block. The row of norms, at column `n`, is the sum of the squares of row `n` of
  `y` taken from zero, laid out as a row.
-/
import proofs.«112857_j75041668596339_2_alg».proof.Proof.Gen.KernelIdeal.Value
import proofs.«112857_j75041668596339_2_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.TcCoe Idealize.ShloMosaic.ValueIdx
open Idealize.SL.Sem

/-- Row `p` of row tile `g`, as a row of the whole array. -/
def tileRow (g : ℕ) (hg : g < 2) (p : Fin 4096) : Fin 8192 := ⟨4096 * g + p.val, by have := p.isLt; omega⟩

/-- Column `q` of column tile `g`, as a column of the whole array (a row of `y`). -/
def tileCol (g : ℕ) (hg : g < 16) (q : Fin 512) : Fin 8192 := ⟨512 * g + q.val, by have := q.isLt; omega⟩

theorem tileRow_congr {g g' : ℕ} (e : g = g') (hg : g < 2) (hg' : g' < 2) (p : Fin 4096) : tileRow g hg p = tileRow g' hg' p := by
  subst e; rfl

/-- The grid has 32 points. -/
theorem npoints : cfg0.N = 32 := N_0

theorem rowTile_lt (t : Fin cfg0.N) : t.val / 16 < 2 := by have := t.isLt; have := npoints; omega
theorem colTile_lt (t : Fin cfg0.N) : t.val % 16 < 16 := Nat.mod_lt _ (by decide)

/-- The printed index maps, decided over the 32 points: the block of `x` follows the row tile, the blocks of `y` and of
    its norms follow the column tile, the block of the result follows both. -/
theorem index_maps : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = t.val / 16 ∧ win0_3.index t (1 : Fin 2) = t.val % 16 :=
  (by decide +kernel : ∀ t : Fin grid0.N, _)

variable {F : FTy → Type} [FloatOps F]
variable (m : (ℓ : Loc nD τ sig) → Buf (Elt F) ℓ)

/-- The block of `x` at point `t`, at `(p, k)`: `x` at row `p` of row tile `t / 16`. -/
theorem xblock_apply (c : Dev nD) (t : Fin cfg0.N) (p : Fin 4096) (k : Fin 768) :
    (iblk m c 0 t : Vec F S4096x768 .f32) (ix2 p k)
      = m ((c : Thread nD τ).loc main_arg0) (ix2 (tileRow (t.val / 16) (rowTile_lt t) p) k) := by
  obtain ⟨e0, e1, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 4096 + 1 * p.val = 4096 * (t.val / 16) + p.val; omega
  | ⟨1, _⟩ => show win0_0.index t (1 : Fin 2) * 768 + 1 * k.val = k.val; omega

/-- The block of `y` at point `t`, at `(q, k)`: `y` at row `q` of column tile `t % 16`. -/
theorem yblock_apply (c : Dev nD) (t : Fin cfg0.N) (q : Fin 512) (k : Fin 768) :
    (iblk m c 1 t : Vec F S512x768 .f32) (ix2 q k)
      = m ((c : Thread nD τ).loc main_arg1) (ix2 (tileCol (t.val % 16) (colTile_lt t) q) k) := by
  obtain ⟨-, -, e0, e1, -⟩ := index_maps t
  show V m c main_arg1 (((cfg0.win 1).blk t).view.emb (ix2 q k)) = _
  rw [V_main_arg1]
  refine congrArg _ (funext fun a => Fin.ext ?_)
  match a with
  | ⟨0, _⟩ => show win0_1.index t (0 : Fin 2) * 512 + 1 * q.val = 512 * (t.val % 16) + q.val; omega
  | ⟨1, _⟩ => show win0_1.index t (1 : Fin 2) * 768 + 1 * k.val = k.val; omega

/-- The block of the row of norms at point `t`, at `(0, q)`: the row at column `q` of column tile `t % 16`. -/
theorem normsblock_apply (c : Dev nD) (t : Fin cfg0.N) (q : Fin 512) :
    (iblk m c 2 t : Vec F S1x512 .f32) (ix2 (0 : Fin 1) q)
      = V m c main_call0_v2 (ix2 (0 : Fin 1) (tileCol (t.val % 16) (colTile_lt t) q)) := by
  obtain ⟨-, -, -, -, e0, e1, -⟩ := index_maps t
  show V m c main_call0_v2 (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = 512 * (t.val % 16) + q.val; omega

/-- The entry of the result that entry `j` of point `t`'s output block is. -/
theorem outblock_emb (t : Fin cfg0.N) (j : S4096x512.Idx) :
    ((cfg0.win 3).blk t).view.emb j
      = ix2 (tileRow (t.val / 16) (rowTile_lt t) (j 0)) (tileCol (t.val % 16) (colTile_lt t) (j 1)) := by
  obtain ⟨-, -, -, -, -, -, e0, e1⟩ := index_maps t
  funext a
  apply Fin.ext
  match a with
  | ⟨0, _⟩ => show win0_3.index t (0 : Fin 2) * 4096 + 1 * (j 0).val = 4096 * (t.val / 16) + (j 0).val; omega
  | ⟨1, _⟩ => show win0_3.index t (1 : Fin 2) * 512 + 1 * (j 1).val = 512 * (t.val % 16) + (j 1).val; omega

/-- What the host wrote into the row of norms before the launch: the row sums of the squares of `y`, laid out as a row. -/
theorem normsRow_eq (c : Dev nD) :
    (V m c main_call0_v2 : S1x8192.Idx → Elt F .f32)
      = broadcastInDim S1x8192 ![1] bcast_S8192_S1x8192_1
          (Host.reduceAdd (mulf (m ((c : Thread nD τ).loc main_arg1)) (m ((c : Thread nD τ).loc main_arg1)))
            (constant (F := F) S_ .f32 0x00000000#32) reducesTo_S8192x768_S8192_d1 h_S_) := by
  dsimp only [V, hostOps0]
  after_results
  rfl

/-- The row of norms at column `n`: the sum of the squares of row `n` of `y`. -/
theorem normsRow_apply (y : FVec Ideal S8192x768 .f32) (n : Fin 8192) :
    broadcastInDim S1x8192 ![1] bcast_S8192_S1x8192_1
        (Host.reduceAdd (F := Ideal) (mulf y y) (constant (F := Ideal) S_ .f32 0x00000000#32) reducesTo_S8192x768_S8192_d1 h_S_)
        (ix2 (0 : Fin 1) n)
      = Cert.PairDist.rowSq y n := by
  refine (broadcastInDim_apply _ bcast_S8192_S1x8192_1 _ (ix2 (0 : Fin 1) n) (ix1 n) (fun a => match a with
    | ⟨0, _⟩ => by show n.val = if (8192 : Nat) = 1 then 0 else n.val; rw [if_neg (by decide)])).trans ?_
  simp only [Host.reduceAdd, Ideal.hostReduceAdd_def]
  rw [Ideal.hostReduceAdd_single reducesTo_S8192x768_S8192_d1 (by decide)]
  show Ideal.ofBits .f32 0x00000000#32 + _ = _
  rw [Ideal.ofBits_zero_f32, zero_add]
  unfold Cert.PairDist.rowSq
  refine Finset.sum_congr rfl fun k _ => ?_
  exact congrArg (fun j => y j * y j) (funext fun a => Fin.ext (by match a with | ⟨0, _⟩ => rfl | ⟨1, _⟩ => rfl))

end Cert.KernelIdeal.BlockValue

end
-- ==== Proof.Pieces.lean ====
/-
  What one run of the kernel body leaves behind, as values.

  The body is run in two cases. At the first column tile of a row tile it first stores the row norms of the block of
  `x` into the scratch column and then computes the output block from the scratch it has just written; at every other
  column tile it leaves the scratch alone and computes the output block from the scratch as it finds it. In both cases
  the output block is stored whole by one store, so what the staging buffer holds afterwards is that store's value,
  and a load of a whole buffer reads the buffer's contents.
-/
import proofs.«112857_j75041668596339_2_alg».proof.Proof.Gen.KernelIdeal.Frame
import Idealize.ShloMosaic.Lib.Pipeline.Value
import Idealize.ShloMosaic.Lib.Tactic

noncomputable section

namespace Cert.KernelIdeal.BlockValue

open Cert.KernelIdeal Cert.KernelIdeal.Gen Idealize.ShloMosaic Idealize.ShloMosaic.TcCoe Idealize.ShloMosaic.Tactic
open Idealize.SL.Sem

variable {F : FTy → Type} [FloatOps F]

/-- The origin of a two-axis buffer. -/
theorem origin2 : (![0, 0] : Fin 2 → Nat) = fun _ => 0 := funext fun a => by fin_cases a <;> rfl

/-- Away from the first column tile the output block is the distance store of the two blocks, the scratch as the
    point before left it (`xs0`), and the row of norms. -/
theorem out_later (c : Dev nD) (i : grid0.Coords) (arg2 : Memref sig .tc .vmem S4096x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x1 .f32) (harg6 : arg6.IsWhole) (hc0 : ¬cond0_0 i)
    (x0 : Vec F S4096x768 .f32) (x1 : Vec F S512x768 .f32) (x2 : Vec F S1x512 .f32) (xs0 : Vec F S4096x1 .f32) :
    out0_B_3 c i arg2 harg2 arg3 harg3 arg4 harg4 arg5 harg5 arg6 harg6 hc0 x0 x1 x2 xs0 = k0_pay2 x0 x1 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero origin2]
  simp only [View.readAt_eq_ld, harg2.read_unread, harg3.read_unread, harg4.read_unread, harg6.read_unread,
    View.ld_unit_zero (S := S4096x768) origin2, View.ld_unit_zero (S := S512x768) origin2,
    View.ld_unit_zero (S := S1x512) origin2, View.ld_unit_zero (S := S4096x1) origin2]

/-- At the first column tile the scratch is left holding the row norms of the block of `x`. -/
theorem scratch_first (c : Dev nD) (i : grid0.Coords) (arg2 : Memref sig .tc .vmem S4096x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x1 .f32) (harg6 : arg6.IsWhole) (hc0 : cond0_0 i)
    (x0 : Vec F S4096x768 .f32) (x1 : Vec F S512x768 .f32) (x2 : Vec F S1x512 .f32) :
    sout0_A_0 c i arg2 harg2 arg3 harg3 arg4 harg4 arg5 harg5 arg6 harg6 hc0 x0 x1 x2 = k0_pay1 x0 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero origin2]
  simp only [View.readAt_eq_ld, harg2.read_unread, View.ld_unit_zero (S := S4096x768) origin2]

/-- At the first column tile the output block is the distance store of the two blocks, the row norms just written,
    and the row of norms of `y`. -/
theorem out_first (c : Dev nD) (i : grid0.Coords) (arg2 : Memref sig .tc .vmem S4096x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x1 .f32) (harg6 : arg6.IsWhole) (hc0 : cond0_0 i)
    (x0 : Vec F S4096x768 .f32) (x1 : Vec F S512x768 .f32) (x2 : Vec F S1x512 .f32) :
    out0_A_3 c i arg2 harg2 arg3 harg3 arg4 harg4 arg5 harg5 arg6 harg6 hc0 x0 x1 x2 = k0_pay2 x0 x1 (k0_pay1 x0) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero origin2, View.readCov_unit_zero (S := S4096x1) _ origin2]
  simp only [View.readAt_eq_ld, harg2.read_unread, harg3.read_unread, harg4.read_unread,
    View.ld_unit_zero (S := S4096x768) origin2, View.ld_unit_zero (S := S512x768) origin2,
    View.ld_unit_zero (S := S1x512) origin2]

end Cert.KernelIdeal.BlockValue

end
-- ==== Proof.BlockDot.lean ====
/-
  The kernel's block contraction, read at an entry.

  At one grid point the body contracts a block of 4096 rows of `x` with a block of 512 rows of `y` along the rows'
  768 entries, into a zero accumulator. Entry `(p, q)` of the product is the sum over `k` of row `p` of the first
  block at `k` times row `q` of the second at `k`: both operands are indexed row first, contracted entry second.
-/
import proofs.«112857_j75041668596339_2_alg».proof.Proof.Gen.KernelIdeal
import Idealize.ShloMosaic.PureOps.Ideal.Laws
import Idealize.ShloMosaic.Lib.ValueIdx

noncomputable section

namespace Cert.KernelIdeal.BlockValue

open Cert.KernelIdeal Cert.KernelIdeal.Gen Idealize.ShloMosaic Idealize.ShloMosaic.ValueIdx

/-- The left operand's row is the entry's row. -/
theorem lhs_row (i : S4096x512.Idx) (q : dot_S4096x768_S512x768_S4096x512_1_1_0_0_n_n.contr.Idx) :
    (dot_S4096x768_S512x768_S4096x512_1_1_0_0_n_n.lhsIdx i q 0).val = (i 0).val := by
  unfold DotDims.lhsIdx
  rw [dif_neg (show ¬(0 : Fin S4096x768.rank) ∈ dot_S4096x768_S512x768_S4096x512_1_1_0_0_n_n.lhsBatch by decide),
    dif_pos (show (0 : Fin S4096x768.rank) ∈ dot_S4096x768_S512x768_S4096x512_1_1_0_0_n_n.lhsNonContracting by decide)]
  rfl

/-- The left operand's second coordinate is the contracted one. -/
theorem lhs_col (i : S4096x512.Idx) (q : dot_S4096x768_S512x768_S4096x512_1_1_0_0_n_n.contr.Idx) :
    (dot_S4096x768_S512x768_S4096x512_1_1_0_0_n_n.lhsIdx i q 1).val = (q ⟨0, by decide⟩).val :=
  dot_S4096x768_S512x768_S4096x512_1_1_0_0_n_n.lhsIdx_val_of_single rfl i q

/-- The right operand's row is the entry's column. -/
theorem rhs_row (i : S4096x512.Idx) (q : dot_S4096x768_S512x768_S4096x512_1_1_0_0_n_n.contr.Idx) :
    (dot_S4096x768_S512x768_S4096x512_1_1_0_0_n_n.rhsIdx i q 0).val = (i 1).val := by
  unfold DotDims.rhsIdx
  rw [dif_neg (show ¬(0 : Fin S512x768.rank) ∈ dot_S4096x768_S512x768_S4096x512_1_1_0_0_n_n.rhsBatch by decide),
    dif_pos (show (0 : Fin S512x768.rank) ∈ dot_S4096x768_S512x768_S4096x512_1_1_0_0_n_n.rhsNonContracting by decide)]
  rfl

/-- The right operand's second coordinate is the contracted one. -/
theorem rhs_col (i : S4096x512.Idx) (q : dot_S4096x768_S512x768_S4096x512_1_1_0_0_n_n.contr.Idx) :
    (dot_S4096x768_S512x768_S4096x512_1_1_0_0_n_n.rhsIdx i q 1).val = (q ⟨0, by decide⟩).val :=
  dot_S4096x768_S512x768_S4096x512_1_1_0_0_n_n.rhsIdx_val_of_single rfl i q

/-- Entry `(p, q)` of the block product into a zero accumulator: the inner product of row `p` of the first block with
    row `q` of the second. -/
theorem blockDot_apply {φ₁ φ₂ : FTy} (a : FVec Ideal S4096x768 φ₁) (b : FVec Ideal S512x768 φ₂) (p : Fin 4096) (q : Fin 512) :
    matmul dot_S4096x768_S512x768_S4096x512_1_1_0_0_n_n none a b (constant (F := Ideal) S4096x512 .f32 0x00000000#32) (ix2 p q)
      = ∑ k : Fin 768, a (ix2 p k) * b (ix2 q k) := by
  simp only [matmul]
  rw [Ideal.matmul_constant_zero_apply, ← Equiv.sum_comp (contrEquiv1 dot_S4096x768_S512x768_S4096x512_1_1_0_0_n_n 768 rfl rfl).symm]
  refine Finset.sum_congr rfl fun k _ => ?_
  have hk := contrEquiv1_symm_val dot_S4096x768_S512x768_S4096x512_1_1_0_0_n_n 768 rfl rfl k
  have el : dot_S4096x768_S512x768_S4096x512_1_1_0_0_n_n.lhsIdx (ix2 p q) ((contrEquiv1 dot_S4096x768_S512x768_S4096x512_1_1_0_0_n_n 768 rfl rfl).symm k) = ix2 p k :=
    funext fun d => Fin.ext (by
      match d with
      | ⟨0, _⟩ => exact lhs_row _ _
      | ⟨1, _⟩ => exact (lhs_col _ _).trans hk)
  have er : dot_S4096x768_S512x768_S4096x512_1_1_0_0_n_n.rhsIdx (ix2 p q) ((contrEquiv1 dot_S4096x768_S512x768_S4096x512_1_1_0_0_n_n 768 rfl rfl).symm k) = ix2 q k :=
    funext fun d => Fin.ext (by
      match d with
      | ⟨0, _⟩ => exact rhs_row _ _
      | ⟨1, _⟩ => exact (rhs_col _ _).trans hk)
  rw [el, er]

end Cert.KernelIdeal.BlockValue

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.Payload.lean ====
/-
  What the kernel body stores, read at an entry.

  The body has two stores. Into the scratch column it stores, for each row of the block of `x`, the sum of the squares
  of the row's entries. Into the output block it stores, at `(p, q)`, the maximum with zero of
      (scratch at row p + norms row at column q) − 2 · ⟨row p of the x block, row q of the y block⟩,
  where the scratch column and the row of norms are each copied across the block before they are added. The change of
  float format before the contraction is the identity on the extended reals.
-/
import proofs.«112857_j75041668596339_2_alg».proof.Proof.Gen.KernelIdeal.Skeleton
import proofs.«112857_j75041668596339_2_alg».proof.Proof.BlockDot
import proofs.«112857_j75041668596339_2_alg».proof.Proof.LibColumnForms
import proofs.«112857_j75041668596339_2_alg».proof.Proof.LibRowForms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx

/-- The scratch store at `(p, u)`: the squared norm of row `p` of the block of `x`. -/
theorem rowNorms_apply (v0 : Vec Ideal S4096x768 .f32) (p : Fin 4096) (u : Fin 1) :
    k0_pay1 (F := Ideal) v0 (ix2 p u) = ∑ k : Fin 768, v0 (ix2 p k) * v0 (ix2 p k) := by
  unfold k0_pay1
  dsimp only
  refine (congrFun (shapeCast_self _ shapeCasts_S4096x1_S4096x1) (ix2 p u)).trans ?_
  refine (Cert.ColumnForms.shapeCast_a_a1_apply _ shapeCasts_S4096_S4096x1 p u).trans ?_
  exact Cert.RowForms.multiReduction_add_rows (mulf v0 v0) reduces_S4096x768_S4096 p

/-- The output store at `(p, q)`, in terms of the scratch column `v8` and the row of norms `v9` it loads. -/
theorem dist_apply (v0 : Vec Ideal S4096x768 .f32) (v5 : Vec Ideal S512x768 .f32) (v8 : Vec Ideal S4096x1 .f32)
    (v9 : Vec Ideal S1x512 .f32) (p : Fin 4096) (q : Fin 512) :
    k0_pay2 (F := Ideal) v0 v5 v8 v9 (ix2 p q)
      = max (v8 (ix2 p (0 : Fin 1)) + v9 (ix2 (0 : Fin 1) q)
              - Ideal.ofBits .f32 0x40000000#32 * ∑ k : Fin 768, v0 (ix2 p k) * v5 (ix2 q k))
            (Ideal.ofBits .f32 0x00000000#32) := by
  have e1 : broadcastTo S4096x512 v8 broadcasts_S4096x1_S4096x512 (ix2 p q) = v8 (ix2 p (0 : Fin 1)) :=
    Cert.ColumnForms.broadcastTo_a1_ab_apply v8 broadcasts_S4096x1_S4096x512 p q
  have e2 : broadcastTo S4096x512 (shapeCast S1x512 v9 shapeCasts_S1x512_S1x512) broadcasts_S1x512_S4096x512 (ix2 p q)
      = v9 (ix2 (0 : Fin 1) q) :=
    (broadcastTo_1b_ab_apply _ broadcasts_S1x512_S4096x512 p q).trans
      (congrFun (shapeCast_self v9 shapeCasts_S1x512_S1x512) _)
  have e3 := blockDot_apply (truncf .bf16 v0 bitsLt_bf16_f32) (truncf .bf16 v5 bitsLt_bf16_f32) p q
  unfold k0_pay2
  show max (broadcastTo S4096x512 v8 broadcasts_S4096x1_S4096x512 (ix2 p q)
        + broadcastTo S4096x512 (shapeCast S1x512 v9 shapeCasts_S1x512_S1x512) broadcasts_S1x512_S4096x512 (ix2 p q)
        - Ideal.ofBits .f32 0x40000000#32 * matmul dot_S4096x768_S512x768_S4096x512_1_1_0_0_n_n none (truncf .bf16 v0 bitsLt_bf16_f32)
            (truncf .bf16 v5 bitsLt_bf16_f32) (constant (F := Ideal) S4096x512 .f32 0x00000000#32) (ix2 p q))
      (Ideal.ofBits .f32 0x00000000#32) = _
  rw [e1, e2, e3]
  rfl

end Cert.KernelIdeal.BlockValue

end
-- ==== Proof.Scratch.lean ====
/-
  The scratch column carried between grid points.

  The kernel writes the scratch only at the first column tile of a row tile, with the squared norms of that row tile's
  rows of `x`, and reads it at every point. The points of one row tile are consecutive and see the same block of `x`, so
  after ANY point `n` the scratch holds, at row `p`, the squared norm of row `p` of row tile `n / 16` of `x`: at a first
  column tile because it has just been written from that block, elsewhere because the point before left it so and the
  row tile has not changed. This is an induction on the point.
-/
import proofs.«112857_j75041668596339_2_alg».proof.Proof.Blocks
import proofs.«112857_j75041668596339_2_alg».proof.Proof.Pieces
import proofs.«112857_j75041668596339_2_alg».proof.Proof.Payload

noncomputable section

namespace Cert.KernelIdeal.BlockValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The squared norms of the block of `x` at point `t` are those of row tile `t / 16` of `x`. -/
theorem blockNorms_apply (c : Dev nD) (t : Fin cfg0.N) (p : Fin 4096) (u : Fin 1) :
    k0_pay1 (F := Ideal) (iblk m c 0 t) (ix2 p u)
      = Cert.PairDist.rowSq (m ((c : Thread nD τ).loc main_arg0)) (tileRow (t.val / 16) (rowTile_lt t) p) := by
  refine (rowNorms_apply (iblk m c 0 t) p u).trans ?_
  unfold Cert.PairDist.rowSq
  exact Finset.sum_congr rfl fun k _ => congrArg₂ (· * ·) (xblock_apply m c t p k) (xblock_apply m c t p k)

/-- After a first column tile the scratch holds the squared norms of that point's block of `x`. -/
theorem scratch_at_first (c : Dev nD) (t : Fin cfg0.N) (h0 : t.val % 16 = 0) :
    (outsAt0 m c t.val t.isLt).2 = k0_pay1 (iblk m c 0 t) := by
  rw [outsAt0_A m c t h0]
  dsimp only
  exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- After any point `n` the scratch holds the squared norms of row tile `n / 16` of `x`. -/
theorem scratch_after (c : Dev nD) : ∀ (n : ℕ) (h : n < cfg0.N) (p : Fin 4096) (u : Fin 1),
    (outsAt0 m c n h).2 (ix2 p u)
      = Cert.PairDist.rowSq (m ((c : Thread nD τ).loc main_arg0)) (tileRow (n / 16) (rowTile_lt ⟨n, h⟩) p)
  | 0, h, p, u => (congrFun (scratch_at_first m c ⟨0, h⟩ rfl) (ix2 p u)).trans (blockNorms_apply m c ⟨0, h⟩ p u)
  | n + 1, h, p, u => by
    by_cases h0 : (n + 1) % 16 = 0
    · exact (congrFun (scratch_at_first m c ⟨n + 1, h⟩ h0) (ix2 p u)).trans (blockNorms_apply m c ⟨n + 1, h⟩ p u)
    · have e : (outsAt0 m c (n + 1) h).2 = (outsAt0 m c n (Nat.lt_of_succ_lt h)).2 := by
        have hB := outsAt0_B m c ⟨n + 1, h⟩ h0
        dsimp only at hB
        rw [hB]
        rfl
      refine (congrFun e (ix2 p u)).trans ?_
      refine (scratch_after c n (Nat.lt_of_succ_lt h) p u).trans ?_
      exact congrArg _ (tileRow_congr (by omega) _ _ p)

end Cert.KernelIdeal.BlockValue

end
-- ==== Proof.Final.lean ====
/-
  The kernel's result array is the pairwise clamped squared distances.

  At a point `t` the body's output store reads the scratch column, which holds the squared norms of row tile `t / 16` of
  `x` (just written, at a first column tile; carried, elsewhere), and the block of the row of squared norms of `y` at
  column tile `t % 16`; with the contraction of the two blocks this makes entry `(p, q)` of the stored block the
  specification's entry at row `p` of the row tile and column `q` of the column tile. So what point `t` writes back is
  its block of the specification. Every point writes back, and the 2 × 16 blocks tile the array: entry `(b, n)` lies
  in the block of row tile `b / 4096` and column tile `n / 512`. Hence the array ends holding the specification.
-/
import proofs.«112857_j75041668596339_2_alg».proof.Proof.Scratch
import proofs.«112857_j75041668596339_2_alg».proof.Proof.Gen.KernelIdeal.Points

noncomputable section

namespace Cert.KernelIdeal.BlockValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The result array the kernel is to end with, on core `c`. -/
abbrev target (c : Dev nD) : FVec Ideal S8192x8192 .f32 := Cert.PairDist.sqDist (m ((c : Thread nD τ).loc main_arg0)) (m ((c : Thread nD τ).loc main_arg1))

/-- The output store at `(p, q)`, for ANY blocks and arrays related entry by entry: if row `p` of the first block is row
    `b` of `x`, row `q` of the second is row `n` of `y`, the scratch at `p` is the squared norm of row `b` of `x` and the
    norms row at `q` that of row `n` of `y`, then the stored value is the specification's entry `(b, n)`. -/
theorem dist_entry (v0 : Vec Ideal S4096x768 .f32) (v5 : Vec Ideal S512x768 .f32) (v8 : Vec Ideal S4096x1 .f32)
    (v9 : Vec Ideal S1x512 .f32) (x y : FVec Ideal S8192x768 .f32) (p : Fin 4096) (q : Fin 512) (b n : Fin 8192)
    (h0 : ∀ k : Fin 768, v0 (ix2 p k) = x (ix2 b k)) (h5 : ∀ k : Fin 768, v5 (ix2 q k) = y (ix2 n k))
    (h8 : v8 (ix2 p (0 : Fin 1)) = Cert.PairDist.rowSq x b) (h9 : v9 (ix2 (0 : Fin 1) q) = Cert.PairDist.rowSq y n) :
    k0_pay2 (F := Ideal) v0 v5 v8 v9 (ix2 p q) = Cert.PairDist.entry x y b n := by
  rw [dist_apply, h8, h9]
  unfold Cert.PairDist.entry Cert.PairDist.rowDot
  simp only [h0, h5]

/-- The output store at point `t`, when the scratch it reads holds the squared norms of row tile `t / 16`, is at every
    entry the specification's entry there. -/
theorem block_entry (c : Dev nD) (t : Fin cfg0.N) (v8 : Vec Ideal S4096x1 .f32)
    (hv8 : ∀ (p : Fin 4096) (u : Fin 1), v8 (ix2 p u)
      = Cert.PairDist.rowSq (m ((c : Thread nD τ).loc main_arg0)) (tileRow (t.val / 16) (rowTile_lt t) p))
    (j : S4096x512.Idx) :
    k0_pay2 (F := Ideal) (iblk m c 0 t) (iblk m c 1 t) v8 (iblk m c 2 t) j
      = target m c (((cfg0.win 3).blk t).view.emb j) := by
  rw [outblock_emb t j]
  obtain ⟨p, q, rfl⟩ : ∃ (p : Fin 4096) (q : Fin 512), j = ix2 p q := ⟨j 0, j 1, eq_ix2 j⟩
  exact dist_entry (iblk m c 0 t) (iblk m c 1 t) v8 (iblk m c 2 t) (m ((c : Thread nD τ).loc main_arg0)) (m ((c : Thread nD τ).loc main_arg1)) p q
    (tileRow (t.val / 16) (rowTile_lt t) p) (tileCol (t.val % 16) (colTile_lt t) q)
    (fun k => xblock_apply m c t p k) (fun k => yblock_apply m c t q k) (hv8 p 0)
    ((normsblock_apply m c t q).trans ((congrFun (normsRow_eq m c) _).trans (normsRow_apply _ _)))

/-- What point `t` writes back is its block of the specification. -/
theorem flushed_eq (c : Dev nD) (t : Fin cfg0.N) :
    (dats m 0 c).flushed 3 t = ((cfg0.win 3).blk t).view.read (Elt Ideal) (target m c) := by
  by_cases h0 : t.val % 16 = 0
  · rw [Cert.KernelIdeal.Value.flushed3_A m c t h0,
      out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
    funext j
    exact block_entry m c t (k0_pay1 (iblk m c 0 t)) (fun p u => blockNorms_apply m c t p u) j
  · rw [Cert.KernelIdeal.Value.flushed3_B m c t h0,
      out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
        (outsAt0 m c (t.val - 1) (Nat.lt_of_le_of_lt (Nat.sub_le _ _) t.isLt)).2]
    funext j
    exact block_entry m c t _ (fun p u =>
      (scratch_after m c (t.val - 1) (Nat.lt_of_le_of_lt (Nat.sub_le _ _) t.isLt) p u).trans
        (congrArg _ (tileRow_congr (by omega) _ _ p))) j

/-- An entry of the array is in point `t`'s block iff each coordinate is in the block's range on its axis. -/
theorem mem_outblock (t : Fin cfg0.N) (i : S8192x8192.Idx) :
    i ∈ ((cfg0.win 3).blk t).view.set
      ↔ ∀ a : Fin 2, win0_3.index t a * S4096x512.size a ≤ (i a).val
          ∧ (i a).val < win0_3.index t a * S4096x512.size a + S4096x512.size a := by
  show i ∈ ((View.whole main_v0).slice (win0_3.rect t)).set ↔ _
  rw [View.set_slice_whole, Rect.mem_set_unit]
  exact Iff.rfl

/-- Every entry of the array is in the block of the point of its row tile and column tile. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  have hN := npoints
  let t : Fin cfg0.N := ⟨16 * ((i 0).val / 4096) + (i 1).val / 512, by omega⟩
  have ht : t.val = 16 * ((i 0).val / 4096) + (i 1).val / 512 := rfl
  obtain ⟨-, -, -, -, -, -, e0, e1⟩ := index_maps t
  refine ⟨t, flush0_3 t, (mem_outblock t i).mpr fun a => ?_⟩
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 512 ≤ (i 1).val ∧ (i 1).val < win0_3.index t (1 : Fin 2) * 512 + 512
    omega

/-- The result array ends holding the specification. -/
theorem final (c : Dev nD) : (dats m 0 c).arrAt 3 cfg0.N = target m c :=
  (dats m 0 c).arrAt_eq_of_cover 3 (target m c) (fun t _ => flushed_eq m c t) covered

/-- Every weakly fair run of the idealized kernel ends with the result array at the specification of its two
    arguments, the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.BlockValue

end
-- ==== Proof.RefIsSpec.lean ====
/-
  The reference computes the pairwise clamped squared distances.

  Its last stage, read at entry `(b, n)`, is a maximum of a difference: the sum of two row sums of squares, each taken
  from zero, minus twice the contraction of row `b` of `x` with row `n` of `y`, bounded below by zero. The stages
  between read their operands at the entry's own coordinates: a row sum copied along a new axis is read at the row it
  came from. A sum taken from zero is the sum, so entry by entry this is the specification.
-/
import proofs.«112857_j75041668596339_2_alg».proof.Proof.Gen.ReferenceIdeal.Read
import proofs.«112857_j75041668596339_2_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx

/-- The squared norm of `x` copied along the columns is read, at `(b, n)`, from row `b`. -/
theorem row_of_x (i : S8192x8192.Idx) (k : Fin 768) : idx_main_v1 (idx_main_v2 (idx_main_v7 i)) k = ix2 (i 0) k :=
  funext fun a => Fin.ext (by match a with | ⟨0, _⟩ => rfl | ⟨1, _⟩ => rfl)

/-- The squared norm of `y` copied down the rows is read, at `(b, n)`, from row `n`. -/
theorem row_of_y (i : S8192x8192.Idx) (k : Fin 768) : idx_main_v4 (idx_main_v5 (idx_main_v8 i)) k = ix2 (i 1) k :=
  funext fun a => Fin.ext (by match a with | ⟨0, _⟩ => rfl | ⟨1, _⟩ => rfl)

/-- The contraction's left factor at `(b, n)` and `k` is `x` at `(b, k)`. -/
theorem left_factor (i : S8192x8192.Idx) (k : Fin 768) : lidx_main_v6 i k = ix2 (i 0) k :=
  funext fun a => Fin.ext (by match a with | ⟨0, _⟩ => rfl | ⟨1, _⟩ => rfl)

/-- The contraction's right factor at `(b, n)` and `k` is `y` at `(n, k)`. -/
theorem right_factor (i : S8192x8192.Idx) (k : Fin 768) : ridx_main_v6 i k = ix2 (i 1) k :=
  funext fun a => Fin.ext (by match a with | ⟨0, _⟩ => rfl | ⟨1, _⟩ => rfl)

/-- The reference's result is the specification of the same two arrays. -/
theorem reference_eq (x y : FVec Ideal S8192x768 .f32) :
    val_main_v14 (F := Ideal) x y = Cert.PairDist.sqDist x y := by
  funext i
  rw [val_main_v14_apply, val_main_v12_apply, val_main_v9_apply, val_main_v11_apply, val_main_v13_apply,
    val_main_v10_apply, val_main_cst_2_apply, val_main_cst_1_apply, val_main_v6_apply, val_main_v7_apply,
    val_main_v8_apply, val_main_v2_apply, val_main_v5_apply, val_main_v1_apply, val_main_v4_apply,
    val_main_cst_apply, val_main_cst_0_apply]
  simp only [row_of_x, row_of_y, left_factor, right_factor,
    Ideal.maximumf_def, Ideal.subf_def, Ideal.addf_def, Ideal.mulf_def, Ideal.ofBits_def, Ideal.ofBits_zero_f32,
    zero_add, Cert.PairDist.sqDist, Cert.PairDist.entry, Cert.PairDist.rowSq, Cert.PairDist.rowDot]
  -- a squared entry is the pointwise product of the array with itself, read at that entry
  rfl

end Cert.ReferenceIdeal.RefValue

end
-- ==== Proof.lean ====
/- Pairwise clamped squared distances between the rows of two matrices: the tiled kernel against the plain formula.

   Both programs compute, for row `b` of `x` and row `n` of `y` (8192 rows of 768 entries each),
       max ( (‖x_b‖² + ‖y_n‖²) − 2 · ⟨x_b, y_n⟩ , 0 ).
   The reference does it on whole arrays. The kernel does it block by block over a grid of 2 row tiles by 16 column
   tiles: it takes the squared norms of `y` from a row the host computed before the launch, computes the squared norms
   of a row tile of `x` once, at the tile's first column tile, keeps them in a scratch column for the tile's other
   fifteen points, and contracts a block of `x` with a block of `y` at every point. Over the extended reals a change of
   float format is the identity, a sum along a row is the same sum wherever and in whatever order it is taken, and a
   contraction into a zero accumulator is the plain sum of products; so each entry the kernel writes is the formula's
   entry (Proof/Final.lean), as is each entry of the reference (Proof/RefIsSpec.lean). No law used needs the inputs to
   be finite. The kernel's idealization rewrote nothing, so that it preserves the kernel is immediate; the three
   programs' runs and unchanged arguments are the generated frames and the reference's generated run. -/
import proofs.«112857_j75041668596339_2_alg».proof.Defs
import proofs.«112857_j75041668596339_2_alg».proof.Proof.Gen.Kernel
import proofs.«112857_j75041668596339_2_alg».proof.Proof.Gen.Kernel.Skeleton
import proofs.«112857_j75041668596339_2_alg».proof.Proof.Gen.Kernel.Launch
import proofs.«112857_j75041668596339_2_alg».proof.Proof.Gen.Kernel.Points
import proofs.«112857_j75041668596339_2_alg».proof.Proof.Gen.Kernel.Frame
import proofs.«112857_j75041668596339_2_alg».proof.Proof.Gen.KernelIdeal
import proofs.«112857_j75041668596339_2_alg».proof.Proof.Gen.KernelIdeal.Skeleton
import proofs.«112857_j75041668596339_2_alg».proof.Proof.Gen.KernelIdeal.Launch
import proofs.«112857_j75041668596339_2_alg».proof.Proof.Gen.KernelIdeal.Points
import proofs.«112857_j75041668596339_2_alg».proof.Proof.Gen.KernelIdeal.Frame
import proofs.«112857_j75041668596339_2_alg».proof.Proof.Gen.ReferenceIdeal
import proofs.«112857_j75041668596339_2_alg».proof.Proof.Gen.Pre_finite_inputs
import proofs.«112857_j75041668596339_2_alg».proof.Proof.Gen.KernelIdeal.Value
import proofs.«112857_j75041668596339_2_alg».proof.Proof.Gen.ReferenceIdeal.Run
import proofs.«112857_j75041668596339_2_alg».proof.Proof.Gen.ReferenceIdeal.Read
import proofs.«112857_j75041668596339_2_alg».proof.Proof.Final
import proofs.«112857_j75041668596339_2_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Over the extended reals the kernel's result array and the reference's both end holding the pairwise clamped
    squared distances of arguments that agree. -/
theorem algebraic : Cert.algebraic_KernelIdeal_ReferenceIdeal := by
  intro m ρ m' ρ' _ hagree
  refine ⟨fun c => Cert.KernelIdeal.BlockValue.target m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
